-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 1 2

variable [Facts]
-- ==== ReferenceIdeal.lean ====
abbrev S8192x4096 : Shape := ⟨2, ![8192, 4096]⟩
abbrev S_ : Shape := ⟨0, ![]⟩
abbrev S8192 : Shape := ⟨1, ![8192]⟩
abbrev S8192x1 : Shape := ⟨2, ![8192, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x4096 : S_.BroadcastsInDim S8192x4096 (![] : Fin 0 → Fin S8192x4096.rank)
  bcast_S8192x1_S8192x4096_0_1 : S8192x1.BroadcastsInDim S8192x4096 (![0, 1] : Fin 2 → Fin S8192x4096.rank)

variable [Facts₀]

class Facts : Prop extends Facts₀ where

variable [Facts]
-- ==== Proof.Reflection.lean ====
/-
  The Householder reflection of each row of `z` across the hyperplane orthogonal to the same row of `v`,
  over the extended reals, for arrays of 8192 rows and 4096 columns:

      out[r, j] = z[r, j] - 2 · v[r, j] · ⟨v_r, z_r⟩ / ⟨v_r, v_r⟩ ,     ⟨a_r, b_r⟩ = ∑ k, a[r, k] · b[r, k].

  Two spellings of it are compared. The GUARDED one multiplies `v[r, j]` by the factor `2 · (⟨v_r, z_r⟩ / ⟨v_r, v_r⟩)`
  only when `⟨v_r, v_r⟩ > 0` and by `0` otherwise; the PLAIN one multiplies `2 · v[r, j]` by the quotient always.
  They agree at every index, for ALL extended-real arrays:
  * where `⟨v_r, v_r⟩ > 0` the two products are one product re-associated (the product of extended reals is
    commutative and associative, infinities included);
  * where it is not, `⟨v_r, v_r⟩` is a sum of squares, each `≥ 0` in the extended reals (`⊥ · ⊥ = ⊤`), so the sum is
    `0`, every square is `0`, and `v[r, j] = 0`: the guarded product is `v · 0 = 0`, the plain one `(2 · 0) · q = 0`
    whatever the quotient `q` is (the convention for `0 / 0` plays no part).
-/
import Idealize.ShloMosaic.PureOps.Ideal
import Idealize.ShloMosaic.PureOps.Ideal.Laws
import Idealize.ShloMosaic.Lib.ValueIdx

noncomputable section

namespace Cert.Householder

open Idealize.ShloMosaic Idealize.ShloMosaic.ValueIdx

/-- The arrays' shape: 8192 rows of 4096 entries. -/
abbrev Arr : Shape := ⟨2, ![8192, 4096]⟩

/-- The f32 words of `0.0` and `2.0`, read as extended reals. -/
abbrev zero : EReal := Ideal.ofBits .f32 0x00000000#32
abbrev two : EReal := Ideal.ofBits .f32 0x40000000#32

/-- Row `r`'s inner product `⟨a_r, b_r⟩`. -/
def rowDot (a b : FVec Ideal Arr .f32) (r : Fin 8192) : EReal :=
  ∑ k : Fin 4096, a (ix2 r k) * b (ix2 r k)

/-- The guarded spelling at row `r`, column `j`. -/
def guardedAt (v z : FVec Ideal Arr .f32) (r : Fin 8192) (j : Fin 4096) : EReal :=
  z (ix2 r j) - v (ix2 r j) *
    Scalar.select (Ideal.cmp .ogt (rowDot v v r) zero) (two * Ideal.div (rowDot v z r) (rowDot v v r)) zero

/-- The plain spelling at row `r`, column `j`. -/
def plainAt (v z : FVec Ideal Arr .f32) (r : Fin 8192) (j : Fin 4096) : EReal :=
  z (ix2 r j) - (two * v (ix2 r j)) * Ideal.div (rowDot v z r) (rowDot v v r)

/-- The reflected array, guarded spelling. -/
def reflect (v z : FVec Ideal Arr .f32) : FVec Ideal Arr .f32 := fun i => guardedAt v z (i 0) (i 1)

/-- A square of an extended real is nonnegative. -/
theorem mul_self_nonneg (x : EReal) : 0 ≤ x * x := by
  induction x using EReal.rec with
  | bot => rw [EReal.bot_mul_bot]; exact le_top
  | coe r => rw [← EReal.coe_mul]; exact EReal.coe_nonneg.mpr (_root_.mul_self_nonneg r)
  | top => rw [EReal.top_mul_top]; exact le_top

/-- A row whose sum of squares is not positive is the zero row. -/
theorem entry_zero_of_not_pos (v : FVec Ideal Arr .f32) (r : Fin 8192) (h : ¬ 0 < rowDot v v r) (j : Fin 4096) :
    v (ix2 r j) = 0 := by
  have hle : v (ix2 r j) * v (ix2 r j) ≤ rowDot v v r :=
    Finset.single_le_sum (f := fun k : Fin 4096 => v (ix2 r k) * v (ix2 r k))
      (fun k _ => mul_self_nonneg (v (ix2 r k))) (Finset.mem_univ j)
  have hz : v (ix2 r j) * v (ix2 r j) = 0 :=
    le_antisymm (hle.trans (not_lt.mp h)) (mul_self_nonneg _)
  exact mul_self_eq_zero.mp hz

/-- THE LAW: the guarded and the plain spelling are one extended real, at every index, for all arrays. -/
theorem guardedAt_eq_plainAt (v z : FVec Ideal Arr .f32) (r : Fin 8192) (j : Fin 4096) :
    guardedAt v z r j = plainAt v z r j := by
  unfold guardedAt plainAt
  have hzero : zero = 0 := Ideal.ofBits_zero_f32
  rw [hzero]
  generalize two = c
  by_cases h : 0 < rowDot v v r
  · have hc : Ideal.cmp .ogt (rowDot v v r) 0 = 1#1 := by simp [Ideal.cmp, h]
    rw [hc, select_one, mul_left_comm, mul_assoc]
  · have hc : Ideal.cmp .ogt (rowDot v v r) 0 = 0#1 := by simp [Ideal.cmp, h]
    rw [hc, select_zero, entry_zero_of_not_pos v r h j, mul_zero, mul_zero, zero_mul]

end Cert.Householder

end
-- ==== Proof.KernelValue.lean ====
/-
  What the kernel leaves in its result array, at the exact extended reals: the reflected array of its two arguments.

  The grid has 32 points; point `t` stages rows `256·t … 256·t + 255` of `v` and of `z` (all 4096 columns) and
  writes back the same rows of the result. A row's two inner products run over the row's 4096 entries, all of which
  lie in the point's block, so the block the point writes back is the block of the whole-array reflection: entry
  `(a, b)` of the block is `z - v · (if ⟨v_r, v_r⟩ > 0 then 2 · (⟨v_r, z_r⟩ / ⟨v_r, v_r⟩) else 0)` at row
  `r = 256·t + a`, column `b`. The 32 row blocks tile the array (row `r` is in block `r / 256`), so after the run
  the result array is the reflection everywhere.
-/
import proofs.«179580_j2602750181657_2_alg».proof.Proof.Gen.KernelIdeal.Value
import proofs.«179580_j2602750181657_2_alg».proof.Proof.Reflection
import Idealize.ShloMosaic.Lib.Pipeline.Value
import Idealize.ShloMosaic.PureOps.Ideal.Laws

noncomputable section

namespace Cert.Householder.Kernel

open Cert.KernelIdeal Cert.KernelIdeal.Gen Idealize.ShloMosaic Idealize.ShloMosaic.TcCoe Idealize.SL.Sem
open Idealize.ShloMosaic.Pipeline (Dat)
open Idealize.ShloMosaic.ValueIdx Cert.Householder

variable (m : (ℓ : Loc nD τ sig) → Buf (Elt Ideal) ℓ) (ρ : Dev nD → PrngReg)

theorem hz : (![0, 0] : Fin 2 → Nat) = fun _ => 0 := funext fun a => by fin_cases a <;> rfl

/-- Row `a` of the block of rows `256·q …` is row `256·q + a` of the array. -/
def rowOf (q : Nat) (hq : q < 32) (a : Fin 256) : Fin 8192 := ⟨q * 256 + a.val, by have := a.isLt; omega⟩

/-- A grid point's number is below 32. -/
theorem pt_lt (t : Fin cfg0.N) : t.val < 32 := t.isLt.trans_eq N_0

/-! ## A block's value, over variables -/

/-- A lane sum of a 256 × 4096 block, at row `a`, is the sum of the row's 4096 entries. -/
theorem lane_sum (src : FVec Ideal S256x4096 .f32) (h : S256x4096.Reduces [1] S256) (hφ : FKind.Formats .f32)
    (hacc : (0x00000000#32 : BitVec 32) = FKind.add.neutral .f32 hφ) (a : Fin 256) :
    multiReduction .add [1] S256 src 0x00000000#32 h hφ hacc (ix1 a) = ∑ k : Fin 4096, src (ix2 a k) :=
  (Ideal.multiReduction_add_single src _ h hφ hacc (ix1 a)).trans
    (Finset.sum_congr rfl fun k _ => congrArg src
      (funext fun d => Fin.ext (by match d with | ⟨0, _⟩ => rfl | ⟨1, _⟩ => rfl)))

/-- The block the body leaves, from the loaded blocks `P1` (of `v`) and `P0` (of `z`), at entry `(a, b)`:
    the guarded reflection with the inner products taken over row `a` of the blocks. -/
theorem block_value (P0 P1 : Vec Ideal S256x4096 .f32) (a : Fin 256) (b : Fin 4096) :
    Value.E2 (F := Ideal) P0 P1 (ix2 a b) =
      P0 (ix2 a b) - P1 (ix2 a b) *
        Scalar.select (Ideal.cmp .ogt (∑ k : Fin 4096, P1 (ix2 a k) * P1 (ix2 a k)) zero)
          (two * Ideal.div (∑ k : Fin 4096, P1 (ix2 a k) * P0 (ix2 a k)) (∑ k : Fin 4096, P1 (ix2 a k) * P1 (ix2 a k)))
          zero := by
  have e0 : Value.ix2_0 (ix2 a b) = ix2 a b :=
    funext fun d => Fin.ext (by match d with | ⟨0, _⟩ => rfl | ⟨1, _⟩ => rfl)
  have e1 : Value.ix2_1 (ix2 a b) = ix2 a b :=
    funext fun d => Fin.ext (by match d with | ⟨0, _⟩ => rfl | ⟨1, _⟩ => rfl)
  have e2 : Value.ix2_2 (ix2 a b) = ix1 a := funext fun d => Fin.ext (by match d with | ⟨0, _⟩ => rfl)
  have e3 : Value.ix2_3 (ix2 a b) = ix1 a := funext fun d => Fin.ext (by match d with | ⟨0, _⟩ => rfl)
  have e4 : Value.ix2_4 (ix2 a b) = ix1 a := funext fun d => Fin.ext (by match d with | ⟨0, _⟩ => rfl)
  have s11 := lane_sum (mulf P1 P1) reduces_S256x4096_S256 (.inl rfl) rfl a
  have s10 := lane_sum (mulf P1 P0) reduces_S256x4096_S256 (.inl rfl) rfl a
  dsimp only [Value.E2]
  rw [e0, e1, e2, e3, e4, s11, s10]
  rfl

/-- The same when the blocks are rows `256·q …` of whole arrays `v`, `z`: the reflected array's entry. -/
theorem point_value (v z : FVec Ideal Arr .f32) (P0 P1 : Vec Ideal S256x4096 .f32) (q : Nat) (hq : q < 32)
    (hv : ∀ (a : Fin 256) (k : Fin 4096), P1 (ix2 a k) = v (ix2 (rowOf q hq a) k))
    (hzz : ∀ (a : Fin 256) (k : Fin 4096), P0 (ix2 a k) = z (ix2 (rowOf q hq a) k))
    (y : S256x4096.Idx) :
    Value.E2 (F := Ideal) P0 P1 y = reflect v z (ix2 (rowOf q hq (y 0)) (y 1)) := by
  obtain ⟨a, b, rfl⟩ : ∃ (a : Fin 256) (b : Fin 4096), y = ix2 a b := ⟨y 0, y 1, eq_ix2 y⟩
  rw [block_value]
  show _ = guardedAt v z (rowOf q hq a) b
  unfold guardedAt rowDot
  simp only [hv, hzz]

/-! ## The blocks of the arguments and of the result -/

/-- The printed index maps, decided over the 32 grid points: every window's block at point `t` is block row `t`,
    block column `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Window 0's block at point `t` is rows `256·t …` of the first argument (`v`). -/
theorem read_v (c : Dev nD) (t : Fin cfg0.N) (a : Fin 256) (k : Fin 4096) :
    (iblk m c 0 t : Vec Ideal S256x4096 .f32) (ix2 a k)
      = (m ((c : Thread nD τ).loc main_arg0) : FVec Ideal Arr .f32) (ix2 (rowOf t.val (pt_lt t) a) k) := by
  obtain ⟨e0, e1, -⟩ := idx_facts t
  unfold iblk
  rw [View.read_apply]
  show V m c main_arg0 _ = _
  rw [V_main_arg0]
  refine congrArg (m ((c : Thread nD τ).loc main_arg0)) ?_
  funext d
  apply Fin.ext
  match d with
  | ⟨0, _⟩ => show win0_0.index t (0 : Fin 2) * 256 + 1 * a.val = t.val * 256 + a.val; rw [e0]; omega
  | ⟨1, _⟩ => show win0_0.index t (1 : Fin 2) * 4096 + 1 * k.val = k.val; rw [e1]; omega

/-- Window 1's block at point `t` is rows `256·t …` of the second argument (`z`). -/
theorem read_z (c : Dev nD) (t : Fin cfg0.N) (a : Fin 256) (k : Fin 4096) :
    (iblk m c 1 t : Vec Ideal S256x4096 .f32) (ix2 a k)
      = (m ((c : Thread nD τ).loc main_arg1) : FVec Ideal Arr .f32) (ix2 (rowOf t.val (pt_lt t) a) k) := by
  obtain ⟨-, -, e0, e1, -⟩ := idx_facts t
  unfold iblk
  rw [View.read_apply]
  show V m c main_arg1 _ = _
  rw [V_main_arg1]
  refine congrArg (m ((c : Thread nD τ).loc main_arg1)) ?_
  funext d
  apply Fin.ext
  match d with
  | ⟨0, _⟩ => show win0_1.index t (0 : Fin 2) * 256 + 1 * a.val = t.val * 256 + a.val; rw [e0]; omega
  | ⟨1, _⟩ => show win0_1.index t (1 : Fin 2) * 4096 + 1 * k.val = k.val; rw [e1]; omega

/-- WHAT POINT `t` WRITES BACK is block `t` of the reflected array of the arguments. -/
theorem flushed_eq (c : Dev nD) (t : Fin cfg0.N) :
    (dats m 0 c).flushed 2 t = ((cfg0.win 2).blk t).view.read (Elt Ideal)
      (reflect (m ((c : Thread nD τ).loc main_arg0)) (m ((c : Thread nD τ).loc main_arg1))) := by
  rw [Value.flushed2]
  unfold out0_2
  simp only [View.ld_unit_zero (S := S256x4096) hz]
  funext y
  refine (Value.canon2_eq (F := Ideal) (iblk m c 1 t) (iblk m c 0 t) y).trans ?_
  refine (point_value _ _ (iblk m c 1 t) (iblk m c 0 t) t.val (pt_lt t) (read_v m c t) (read_z m c t) y).trans ?_
  show reflect _ _ _ = reflect _ _ (((cfg0.win 2).blk t).view.emb y)
  refine congrArg (reflect (m ((c : Thread nD τ).loc main_arg0)) (m ((c : Thread nD τ).loc main_arg1))) ?_
  obtain ⟨-, -, -, -, e4, e5⟩ := idx_facts t
  funext d
  apply Fin.ext
  match d with
  | ⟨0, _⟩ => show t.val * 256 + (y 0).val = win0_2.index t (0 : Fin 2) * 256 + 1 * (y 0).val; rw [e4]; omega
  | ⟨1, _⟩ => show (y 1).val = win0_2.index t (1 : Fin 2) * 4096 + 1 * (y 1).val; rw [e5]; omega

/-- Every index of the result array is in some point's block: row `r` is in block `r / 256`. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ : ∃ t : Fin cfg0.N, t.val = (i 0).val / 256 :=
    ⟨⟨(i 0).val / 256, (by omega : (i 0).val / 256 < 32).trans_eq N_0.symm⟩, rfl⟩
  obtain ⟨-, -, -, -, e4, e5⟩ := idx_facts t
  refine ⟨t, flush0_2 t, ?_⟩
  show i ∈ ((View.whole main_v0).slice (win0_2.rect t)).set
  rw [View.set_slice_whole, Rect.mem_set_unit]
  intro d
  match d with
  | ⟨0, _⟩ =>
    show win0_2.index t (0 : Fin 2) * 256 ≤ (i 0).val ∧ (i 0).val < win0_2.index t (0 : Fin 2) * 256 + 256
    rw [e4, ht]; omega
  | ⟨1, _⟩ =>
    show win0_2.index t (1 : Fin 2) * 4096 ≤ (i 1).val ∧ (i 1).val < win0_2.index t (1 : Fin 2) * 4096 + 4096
    rw [e5]; omega

/-- THE RESULT ARRAY after the run is the reflected array of the arguments. -/
theorem final (c : Dev nD) : (dats m 0 c).arrAt 2 cfg0.N
    = reflect (m ((c : Thread nD τ).loc main_arg0)) (m ((c : Thread nD τ).loc main_arg1)) :=
  (dats m 0 c).arrAt_eq_of_cover 2 _ (fun t _ => flushed_eq m c t) cover

/-- The kernel's run: the result array at the reflected array of the arguments, the arguments unchanged. -/
theorem run : θ_run defs (onTc (τ := τ) (main (F := Ideal))) ⟨m, fun _ => 0, ρ⟩ fun r => ∀ c : Dev nD,
      r.2.mem ((c : Thread nD τ).loc main_v0)
        = reflect (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Householder.Kernel

end
-- ==== Proof.ReferenceValue.lean ====
/-
  The reference program's result, read one operation at a time, is the plain spelling of the row-wise
  Householder reflection: `z - (2 · v) · (⟨v_r, z_r⟩ / ⟨v_r, v_r⟩)`, the two inner products host sums over a row
  starting from `0` and broadcast back along the row. By the law of the specification it is the reflected array.
-/
import proofs.«179580_j2602750181657_2_alg».proof.Proof.Gen.ReferenceIdeal.Read
import proofs.«179580_j2602750181657_2_alg».proof.Proof.Reflection

noncomputable section

namespace Cert.Householder.Reference

open Cert.ReferenceIdeal Cert.ReferenceIdeal.Gen Cert.ReferenceIdeal.Read
open Idealize.ShloMosaic Idealize.ShloMosaic.ValueIdx Cert.Householder

/-- The row a broadcast quotient is read at, and the entries a row sum runs over. -/
theorem row_idx (r : Fin 8192) (j : Fin 4096) (k : Fin 4096) :
    idx_main_v1 (idx_main_v2 (idx_main_v9 (ix2 r j))) k = ix2 r k :=
  funext fun a => Fin.ext (by match a with | ⟨0, _⟩ => rfl | ⟨1, _⟩ => rfl)

theorem row_idx' (r : Fin 8192) (j : Fin 4096) (k : Fin 4096) :
    idx_main_v4 (idx_main_v5 (idx_main_v9 (ix2 r j))) k = ix2 r k :=
  funext fun a => Fin.ext (by match a with | ⟨0, _⟩ => rfl | ⟨1, _⟩ => rfl)

/-- The reference's last stage is the reflected array of its two arguments. -/
theorem stage_eq (x0 x1 : (⟨S8192x4096, .f32⟩ : BufTy).Contents (Elt Ideal)) :
    val_main_v11 (F := Ideal) x0 x1 = reflect x0 x1 := by
  funext i
  obtain ⟨r, j, rfl⟩ : ∃ (r : Fin 8192) (j : Fin 4096), i = ix2 r j := ⟨i 0, i 1, eq_ix2 i⟩
  show _ = guardedAt x0 x1 r j
  rw [guardedAt_eq_plainAt]
  unfold plainAt rowDot
  rw [val_main_v11_apply, val_main_v10_apply, val_main_v7_apply, val_main_v6_apply, val_main_cst_1_apply,
    val_main_v9_apply, val_main_v8_apply, val_main_v2_apply, val_main_v5_apply, val_main_v1_apply,
    val_main_v4_apply, val_main_cst_apply, val_main_cst_0_apply]
  simp only [val_main_v0_apply, val_main_v3_apply, row_idx, row_idx', Ideal.mulf_def, Ideal.subf_def,
    Ideal.hostDivf_def, Ideal.ofBits_def, Ideal.ofBits_zero_f32, zero_add]

end Cert.Householder.Reference

end
-- ==== Proof.lean ====
/-
  The certificate of the row-wise Householder reflection `z - 2 · v · ⟨v, z⟩ / ⟨v, v⟩` over arrays of 8192 rows and
  4096 columns: a 32-point kernel, each point reflecting 256 whole rows and leaving a row with `⟨v, v⟩ ≤ 0`
  unreflected, against the unguarded formula on the host.

  * The three frames: each kernel program's is its generated frame; the reference's is its generated run with the
    result dropped.
  * `preserves`: the idealization rewrote nothing.
  * `algebraic`: at the exact extended reals the kernel's result array is the reflected array of its arguments
    (Proof/KernelValue.lean: each point writes its block of it, and the blocks tile the array) and so is the
    reference's (Proof/ReferenceValue.lean), by the law of Proof/Reflection.lean: where a row's sum of squares is
    positive the two formulas are one product re-associated, and where it is not the row of `v` is zero and both
    leave `z`. The law holds for all extended-real arrays, so the finiteness precondition is not opened.
-/
import proofs.«179580_j2602750181657_2_alg».proof.Defs
import proofs.«179580_j2602750181657_2_alg».proof.Proof.Gen.Kernel
import proofs.«179580_j2602750181657_2_alg».proof.Proof.Gen.Kernel.Skeleton
import proofs.«179580_j2602750181657_2_alg».proof.Proof.Gen.Kernel.Launch
import proofs.«179580_j2602750181657_2_alg».proof.Proof.Gen.Kernel.Points
import proofs.«179580_j2602750181657_2_alg».proof.Proof.Gen.Kernel.Frame
import proofs.«179580_j2602750181657_2_alg».proof.Proof.Gen.KernelIdeal
import proofs.«179580_j2602750181657_2_alg».proof.Proof.Gen.KernelIdeal.Skeleton
import proofs.«179580_j2602750181657_2_alg».proof.Proof.Gen.KernelIdeal.Launch
import proofs.«179580_j2602750181657_2_alg».proof.Proof.Gen.KernelIdeal.Points
import proofs.«179580_j2602750181657_2_alg».proof.Proof.Gen.KernelIdeal.Frame
import proofs.«179580_j2602750181657_2_alg».proof.Proof.Gen.ReferenceIdeal
import proofs.«179580_j2602750181657_2_alg».proof.Proof.Gen.Pre_finite_inputs
import proofs.«179580_j2602750181657_2_alg».proof.Proof.Gen.KernelIdeal.Value
import proofs.«179580_j2602750181657_2_alg».proof.Proof.Gen.ReferenceIdeal.Run
import proofs.«179580_j2602750181657_2_alg».proof.Proof.Gen.ReferenceIdeal.Read
import proofs.«179580_j2602750181657_2_alg».proof.Proof.Reflection
import proofs.«179580_j2602750181657_2_alg».proof.Proof.KernelValue
import proofs.«179580_j2602750181657_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, from memories agreeing on `v` and `z`, end with the reflected array of `v` and `z`. -/
theorem algebraic : Cert.algebraic_KernelIdeal_ReferenceIdeal := by
  intro m ρ m' ρ' _ hagree
  refine ⟨_, Cert.Householder.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.Householder.Reference.stage_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
